-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S64x2048 : Shape := ⟨2, ![64, 2048]⟩
abbrev S2048x64 : Shape := ⟨2, ![2048, 64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  main_v18

def fn {F : FTy → Type} [FloatOps F] (main_arg0 : FVec F S4x4096x2048 .f32) (main_arg1 : FVec F S2048x2048 .f32) (main_arg2 : FVec F S64x2048 .f32) (main_arg3 : FVec F S2048x64 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_v13 main_v16
-- ==== Kernel.lean ====
abbrev S4x4096x2048 : Shape := ⟨3, ![4, 4096, 2048]⟩
abbrev S2048x2048 : Shape := ⟨2, ![2048, 2048]⟩
abbrev S64x2048 : Shape := ⟨2, ![64, 2048]⟩
abbrev S2048x64 : Shape := ⟨2, ![2048, 64]⟩
abbrev S16384x2048 : Shape := ⟨2, ![16384, 2048]⟩
abbrev S1024x2048 : Shape := ⟨2, ![1024, 2048]⟩
abbrev S1024x64 : Shape := ⟨2, ![1024, 64]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S64x2048, .f32⟩
  | .hbm, ⟨3, _⟩ => ⟨S2048x64, .f32⟩
  | .hbm, ⟨4, _⟩ => ⟨S16384x2048, .f32⟩
  | .hbm, ⟨5, _⟩ => ⟨S16384x2048, .f32⟩
  | .hbm, ⟨6, _⟩ => ⟨S4x4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S1024x64, .f32⟩
  | .local _ .vmem, ⟨6, _⟩ => ⟨S1024x64, .f32⟩
  | .local _ .vmem, ⟨7, _⟩ => ⟨S1024x1024, .f32⟩
  | .local _ .vmem, ⟨8, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x4096x2048_S16384x2048 : S4x4096x2048.ShapeCasts S16384x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S1024x64_S1024x64_0_0 : ∀ a, (![0, 0] : Fin 2 → Nat) a + S1024x64.size a ≤ S1024x64.size a
  h_S1024x64 : 0 < S1024x64.numel
  inb_S1024x1024_S1024x1024_0_0 : ∀ a, (![0, 0] : Fin 2 → Nat) a + S1024x1024.size a ≤ S1024x1024.size a
  h_S1024x1024 : 0 < S1024x1024.numel
  shapeCasts_S16384x2048_S4x4096x2048 : S16384x2048.ShapeCasts S4x4096x2048
  dot_S1024x2048_S1024x2048_S1024x1024_1_1_0_0_n_n_wf : DotDims.WF S1024x2048 S1024x2048 S1024x1024 [1] [1] [0] [0] [] []
  dot_S1024x2048_S64x2048_S1024x64_1_1_0_0_n_n_wf : DotDims.WF S1024x2048 S64x2048 S1024x64 [1] [1] [0] [0] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x2048.size a
  hwx0_1 : ∀ i : grid0.Coords, EltTy.bits .f32 = 32 ∨ (Rect.block (s := S2048x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S2048x64.size a
  hwx0_3 : ∀ i : grid0.Coords, EltTy.bits .f32 = 32 ∨ (Rect.block (s := S2048x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x2048.size a
  hwx0_4 : ∀ i : grid0.Coords, EltTy.bits .f32 = 32 ∨ (Rect.block (s := S16384x2048) S1024x1024.size (cc0_transform_4 i) (hinb0_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S64x2048 : Shape := ⟨2, ![64, 2048]⟩
abbrev S2048x64 : Shape := ⟨2, ![2048, 64]⟩
abbrev S4x4096x64 : Shape := ⟨3, ![4, 4096, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S64x2048, .f32⟩
  | .hbm, ⟨3, _⟩ => ⟨S2048x64, .f32⟩
  | .hbm, ⟨4, _⟩ => ⟨S4x4096x2048, .f32⟩
  | .hbm, ⟨5, _⟩ => ⟨S4x4096x64, .f32⟩
  | .hbm, ⟨6, _⟩ => ⟨S4x4096x2048, .f32⟩
  | .hbm, ⟨7, _⟩ => ⟨S_, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x4096x2048 : S_.BroadcastsInDim S4x4096x2048 (![] : Fin 0 → Fin S4x4096x2048.rank)
  dot_S4x4096x2048_S2048x2048_S4x4096x2048_2_1_01_0_n_n_wf : DotDims.WF S4x4096x2048 S2048x2048 S4x4096x2048 [2] [1] [0, 1] [0] [] []
  dot_S4x4096x2048_S64x2048_S4x4096x64_2_1_01_0_n_n_wf : DotDims.WF S4x4096x2048 S64x2048 S4x4096x64 [2] [1] [0, 1] [0] [] []
  dot_S4x4096x64_S2048x64_S4x4096x2048_2_1_01_0_n_n_wf : DotDims.WF S4x4096x64 S2048x64 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf
def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S2048x64_S4x4096x2048_2_1_01_0_n_n : DotDims S4x4096x64 S2048x64 S4x4096x2048 where
  lhsContracting := [2]
  rhsContracting := [1]
  lhsNonContracting := [0, 1]
  rhsNonContracting := [0]
  lhsBatch := []
  rhsBatch := []
  wf := dot_S4x4096x64_S2048x64_S4x4096x2048_2_1_01_0_n_n_wf

class Facts : Prop extends Facts₀ where

variable [Facts]
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.LibLoraLayer.lean ====
/-
  A linear layer with a low-rank correction, entry by entry, on the extended reals.

  An input row `x_p` of length `K` meets a weight matrix `w` stored one row per output feature (`[M, K]`), a
  down-projection `a` (`[R, K]`) and an up-projection `b` (`[M, R]`). The layer's output at row `p`, feature `o` is

      ∑ d, x[p,d] · w[o,d]  +  σ · ∑ r, (∑ d, x[p,d] · a[r,d]) · b[o,r]

  with `σ` the correction's scale. The sums are kept in this grouping (project down, then up): no term is moved
  across a sum, so nothing here asks the entries to be finite. Stated for a matrix of rows `[n, K]` and for a batch
  `[S, T, K]` of rows; batch entry (s, t, o) is matrix entry (s·T + t, o) of the batch read as the matrix of its
  rows, once the two agree row by row. General in every extent.
-/
import Idealize.ShloMosaic.Lib.ValueIdx
import Idealize.ShloMosaic.PureOps.Ideal

noncomputable section

open scoped BigOperators

namespace Cert.LibLoraLayer

open Idealize.ShloMosaic Idealize.ShloMosaic.ValueIdx

variable {n S T K M R : ℕ}

/-- The layer at row `p`, feature `o`, of a matrix of rows. -/
def rowEntry (σ : EReal) (x : (⟨2, ![n, K]⟩ : Shape).Idx → EReal) (w : (⟨2, ![M, K]⟩ : Shape).Idx → EReal)
    (a : (⟨2, ![R, K]⟩ : Shape).Idx → EReal) (b : (⟨2, ![M, R]⟩ : Shape).Idx → EReal) (p : Fin n) (o : Fin M) : EReal :=
  (∑ d : Fin K, x (ix2 p d) * w (ix2 o d))
    + σ * ∑ r : Fin R, (∑ d : Fin K, x (ix2 p d) * a (ix2 r d)) * b (ix2 o r)

/-- The layer at row (s, t), feature `o`, of a batch of rows. -/
def batchEntry (σ : EReal) (x : (⟨3, ![S, T, K]⟩ : Shape).Idx → EReal) (w : (⟨2, ![M, K]⟩ : Shape).Idx → EReal)
    (a : (⟨2, ![R, K]⟩ : Shape).Idx → EReal) (b : (⟨2, ![M, R]⟩ : Shape).Idx → EReal) (s : Fin S) (t : Fin T) (o : Fin M) : EReal :=
  (∑ d : Fin K, x (ix3 s t d) * w (ix2 o d))
    + σ * ∑ r : Fin R, (∑ d : Fin K, x (ix3 s t d) * a (ix2 r d)) * b (ix2 o r)

/-- The whole output matrix `[n, M]`. -/
def rows (σ : EReal) (x : (⟨2, ![n, K]⟩ : Shape).Idx → EReal) (w : (⟨2, ![M, K]⟩ : Shape).Idx → EReal)
    (a : (⟨2, ![R, K]⟩ : Shape).Idx → EReal) (b : (⟨2, ![M, R]⟩ : Shape).Idx → EReal) : (⟨2, ![n, M]⟩ : Shape).Idx → EReal :=
  fun j => rowEntry σ x w a b (j 0) (j 1)

/-- The whole output batch `[S, T, M]`. -/
def batch (σ : EReal) (x : (⟨3, ![S, T, K]⟩ : Shape).Idx → EReal) (w : (⟨2, ![M, K]⟩ : Shape).Idx → EReal)
    (a : (⟨2, ![R, K]⟩ : Shape).Idx → EReal) (b : (⟨2, ![M, R]⟩ : Shape).Idx → EReal) : (⟨3, ![S, T, M]⟩ : Shape).Idx → EReal :=
  fun i => batchEntry σ x w a b (i 0) (i 1) (i 2)

theorem rows_apply (σ : EReal) (x : (⟨2, ![n, K]⟩ : Shape).Idx → EReal) (w : (⟨2, ![M, K]⟩ : Shape).Idx → EReal)
    (a : (⟨2, ![R, K]⟩ : Shape).Idx → EReal) (b : (⟨2, ![M, R]⟩ : Shape).Idx → EReal) (p : Fin n) (o : Fin M) :
    rows σ x w a b (ix2 p o) = rowEntry σ x w a b p o := rfl

theorem batch_apply (σ : EReal) (x : (⟨3, ![S, T, K]⟩ : Shape).Idx → EReal) (w : (⟨2, ![M, K]⟩ : Shape).Idx → EReal)
    (a : (⟨2, ![R, K]⟩ : Shape).Idx → EReal) (b : (⟨2, ![M, R]⟩ : Shape).Idx → EReal) (s : Fin S) (t : Fin T) (o : Fin M) :
    batch σ x w a b (ix3 s t o) = batchEntry σ x w a b s t o := rfl

/-- A row of the matrix that IS row (s, t) of the batch gives the same output entries: only that one input row is read. -/
theorem rowEntry_eq_batchEntry (σ : EReal) (x : (⟨2, ![n, K]⟩ : Shape).Idx → EReal) (x' : (⟨3, ![S, T, K]⟩ : Shape).Idx → EReal)
    (w : (⟨2, ![M, K]⟩ : Shape).Idx → EReal) (a : (⟨2, ![R, K]⟩ : Shape).Idx → EReal) (b : (⟨2, ![M, R]⟩ : Shape).Idx → EReal)
    (p : Fin n) (s : Fin S) (t : Fin T) (o : Fin M) (hx : ∀ d : Fin K, x (ix2 p d) = x' (ix3 s t d)) :
    rowEntry σ x w a b p o = batchEntry σ x' w a b s t o := by
  unfold rowEntry batchEntry
  simp only [hx]

/-- The same entry from rows and weights that agree where it reads them: row `p` of the input against row `p'`, row
    `o` of the weights and of the up-projection against row `o'`, the down-projection whole. -/
theorem rowEntry_congr {n' M' : ℕ} (σ : EReal)
    (x : (⟨2, ![n, K]⟩ : Shape).Idx → EReal) (w : (⟨2, ![M, K]⟩ : Shape).Idx → EReal)
    (a : (⟨2, ![R, K]⟩ : Shape).Idx → EReal) (b : (⟨2, ![M, R]⟩ : Shape).Idx → EReal)
    (x' : (⟨2, ![n', K]⟩ : Shape).Idx → EReal) (w' : (⟨2, ![M', K]⟩ : Shape).Idx → EReal)
    (a' : (⟨2, ![R, K]⟩ : Shape).Idx → EReal) (b' : (⟨2, ![M', R]⟩ : Shape).Idx → EReal)
    (p : Fin n) (o : Fin M) (p' : Fin n') (o' : Fin M')
    (hx : ∀ d : Fin K, x (ix2 p d) = x' (ix2 p' d)) (hw : ∀ d : Fin K, w (ix2 o d) = w' (ix2 o' d))
    (ha : ∀ (r : Fin R) (d : Fin K), a (ix2 r d) = a' (ix2 r d)) (hb : ∀ r : Fin R, b (ix2 o r) = b' (ix2 o' r)) :
    rowEntry σ x w a b p o = rowEntry σ x' w' a' b' p' o' := by
  unfold rowEntry
  simp only [hx, hw, ha, hb]

end Cert.LibLoraLayer

end
-- ==== Proof.LoraBlock.lean ====
/-
  One output block of the kernel, entry by entry.

  At a grid point the body holds a block of input rows `x` (`[1024, 2048]`), the matching block of weight rows `w`
  (`[1024, 2048]`), the whole down-projection `a` (`[64, 2048]`) and a block of up-projection rows `b` (`[1024, 64]`).
  It forms three matrix products, each pairing rows of its two operands and each started from zero — `x·wᵀ`, `x·aᵀ`
  and `(x·aᵀ)·bᵀ` — and stores `x·wᵀ + 2 · (x·aᵀ)·bᵀ`. The narrowing of the operands to a shorter float format
  is the identity on the extended reals, so entry (p, q) of the stored block is the layer's entry for row `p` of `x`
  and rows `q` of `w` and `b`.
-/
import proofs.«102331_j15015205667343_1_alg».proof.Proof.Gen.KernelIdeal.Skeleton
import proofs.«102331_j15015205667343_1_alg».proof.Proof.LibDotRows
import proofs.«102331_j15015205667343_1_alg».proof.Proof.LibLoraLayer
import Idealize.ShloMosaic.Lib.Pipeline.Value

noncomputable section

open scoped BigOperators

namespace Cert.KernelIdeal.LoraBlock

open Cert.KernelIdeal Cert.KernelIdeal.Gen Idealize.ShloMosaic Idealize.ShloMosaic.ValueIdx

/-- The correction's scale, the float 2.0, as the program spells it. -/
abbrev scale : EReal := Ideal.ofBits .f32 0x40000000#32

/-! ## The three products' dimension numbers: which operand entry meets which -/

section Dims

abbrev dBase := dot_S1024x2048_S1024x2048_S1024x1024_1_1_0_0_n_n
abbrev dDown := dot_S1024x2048_S64x2048_S1024x64_1_1_0_0_n_n
abbrev dUp := dot_S1024x64_S1024x64_S1024x1024_1_1_0_0_n_n

theorem base_l0 (i : S1024x1024.Idx) (q : dBase.contr.Idx) : (dBase.lhsIdx i q 0).val = (i 0).val := by
  unfold DotDims.lhsIdx
  rw [dif_neg (show ¬(0 : Fin S1024x2048.rank) ∈ dBase.lhsBatch by decide),
    dif_pos (show (0 : Fin S1024x2048.rank) ∈ dBase.lhsNonContracting by decide)]
  rfl
theorem base_l1 (i : S1024x1024.Idx) (q : dBase.contr.Idx) : (dBase.lhsIdx i q 1).val = (q ⟨0, by decide⟩).val :=
  dBase.lhsIdx_val_of_single rfl i q
theorem base_r0 (i : S1024x1024.Idx) (q : dBase.contr.Idx) : (dBase.rhsIdx i q 0).val = (i 1).val := by
  unfold DotDims.rhsIdx
  rw [dif_neg (show ¬(0 : Fin S1024x2048.rank) ∈ dBase.rhsBatch by decide),
    dif_pos (show (0 : Fin S1024x2048.rank) ∈ dBase.rhsNonContracting by decide)]
  rfl
theorem base_r1 (i : S1024x1024.Idx) (q : dBase.contr.Idx) : (dBase.rhsIdx i q 1).val = (q ⟨0, by decide⟩).val :=
  dBase.rhsIdx_val_of_single rfl i q

theorem down_l0 (i : S1024x64.Idx) (q : dDown.contr.Idx) : (dDown.lhsIdx i q 0).val = (i 0).val := by
  unfold DotDims.lhsIdx
  rw [dif_neg (show ¬(0 : Fin S1024x2048.rank) ∈ dDown.lhsBatch by decide),
    dif_pos (show (0 : Fin S1024x2048.rank) ∈ dDown.lhsNonContracting by decide)]
  rfl
theorem down_l1 (i : S1024x64.Idx) (q : dDown.contr.Idx) : (dDown.lhsIdx i q 1).val = (q ⟨0, by decide⟩).val :=
  dDown.lhsIdx_val_of_single rfl i q
theorem down_r0 (i : S1024x64.Idx) (q : dDown.contr.Idx) : (dDown.rhsIdx i q 0).val = (i 1).val := by
  unfold DotDims.rhsIdx
  rw [dif_neg (show ¬(0 : Fin S64x2048.rank) ∈ dDown.rhsBatch by decide),
    dif_pos (show (0 : Fin S64x2048.rank) ∈ dDown.rhsNonContracting by decide)]
  rfl
theorem down_r1 (i : S1024x64.Idx) (q : dDown.contr.Idx) : (dDown.rhsIdx i q 1).val = (q ⟨0, by decide⟩).val :=
  dDown.rhsIdx_val_of_single rfl i q

theorem up_l0 (i : S1024x1024.Idx) (q : dUp.contr.Idx) : (dUp.lhsIdx i q 0).val = (i 0).val := by
  unfold DotDims.lhsIdx
  rw [dif_neg (show ¬(0 : Fin S1024x64.rank) ∈ dUp.lhsBatch by decide),
    dif_pos (show (0 : Fin S1024x64.rank) ∈ dUp.lhsNonContracting by decide)]
  rfl
theorem up_l1 (i : S1024x1024.Idx) (q : dUp.contr.Idx) : (dUp.lhsIdx i q 1).val = (q ⟨0, by decide⟩).val :=
  dUp.lhsIdx_val_of_single rfl i q
theorem up_r0 (i : S1024x1024.Idx) (q : dUp.contr.Idx) : (dUp.rhsIdx i q 0).val = (i 1).val := by
  unfold DotDims.rhsIdx
  rw [dif_neg (show ¬(0 : Fin S1024x64.rank) ∈ dUp.rhsBatch by decide),
    dif_pos (show (0 : Fin S1024x64.rank) ∈ dUp.rhsNonContracting by decide)]
  rfl
theorem up_r1 (i : S1024x1024.Idx) (q : dUp.contr.Idx) : (dUp.rhsIdx i q 1).val = (q ⟨0, by decide⟩).val :=
  dUp.rhsIdx_val_of_single rfl i q

/-! ## The stored block at an entry -/

/-- Entry (p, q) of what the body stores is the layer's entry for row `p` of the input block against rows `q` of the
    weight block and of the up-projection block: each product is a plain sum over the contracted coordinate, the
    narrowed operands are the operands themselves, and the spread scale multiplies the correction. -/
theorem pay_apply (x0 : Vec Ideal S1024x2048 .f32) (x1 : Vec Ideal S1024x2048 .f32) (x2 : Vec Ideal S64x2048 .f32)
    (x3 : Vec Ideal S1024x64 .f32) (p q : Fin 1024) :
    k0_pay1 (F := Ideal) x0 x1 x2 x3 (ix2 p q) = Cert.LibLoraLayer.rowEntry scale x0 x1 x2 x3 p q := by
  unfold k0_pay1 Cert.LibLoraLayer.rowEntry
  rw [shapeCast_self]
  refine congrArg₂ (· + ·) ?_ (congrArg (scale * ·) ?_)
  · exact DotRows.matmul_zero_apply dBase rfl rfl base_l0 base_l1 base_r0 base_r1 none
      (truncf .bf16 x0 bitsLt_bf16_f32) (truncf .bf16 x1 bitsLt_bf16_f32) p q
  · refine (DotRows.matmul_zero_apply dUp rfl rfl up_l0 up_l1 up_r0 up_r1 none
      (truncf .bf16 (matmul dDown none (truncf .bf16 x0 bitsLt_bf16_f32) (truncf .bf16 x2 bitsLt_bf16_f32)
        (constant S1024x64 .f32 0x00000000#32)) bitsLt_bf16_f32) (truncf .bf16 x3 bitsLt_bf16_f32) p q).trans ?_
    refine Finset.sum_congr rfl fun r _ => congrArg (· * x3 (ix2 q r)) ?_
    exact DotRows.matmul_zero_apply dDown rfl rfl down_l0 down_l1 down_r0 down_r1 none
      (truncf .bf16 x0 bitsLt_bf16_f32) (truncf .bf16 x2 bitsLt_bf16_f32) p r

/-- So the stored block is the layer's output matrix for the point's four blocks. -/
theorem pay_eq (x0 : Vec Ideal S1024x2048 .f32) (x1 : Vec Ideal S1024x2048 .f32) (x2 : Vec Ideal S64x2048 .f32)
    (x3 : Vec Ideal S1024x64 .f32) :
    k0_pay1 (F := Ideal) x0 x1 x2 x3 = Cert.LibLoraLayer.rows scale x0 x1 x2 x3 := by
  funext j
  obtain ⟨p, q, rfl⟩ : ∃ (p : Fin 1024) (q : Fin 1024), j = ix2 p q := ⟨j 0, j 1, eq_ix2 j⟩
  exact pay_apply x0 x1 x2 x3 p q

end Dims

end Cert.KernelIdeal.LoraBlock

end
-- ==== Proof.LibRowsFlatten.lean ====
/-
  A rank-3 array `[a, b, c]` and the matrix `[a·b, c]` of its rows, one recast as the other, read at an index.
  Row `r = s·b + t` of the matrix is the slice `(s, t, ·)` of the array: both sit at the same row-major position.
  General in the extents; the matrix's row count `n` is named with its equation `n = a·b` so that a literal
  (`16384` for `2048·8`) can be used.
-/
import Idealize.ShloMosaic.Lib.Pipeline.Value
import Idealize.ShloMosaic.Lib.ValueIdx

namespace Cert.LibRowsFlatten

open Idealize.ShloMosaic Idealize.ShloMosaic.ValueIdx

variable {α : Type}

/-- `[a, b, c]` recast as `[n, c]` with `n = a·b`, read at `(r, l)` with `r = s·b + t`: the array at `(s, t, l)`. -/
theorem shapeCast_abc_nc_apply {a b c n : ℕ} (x : (⟨3, ![a, b, c]⟩ : Shape).Idx → α)
    (h : (⟨3, ![a, b, c]⟩ : Shape).ShapeCasts ⟨2, ![n, c]⟩) (s : Fin a) (t : Fin b) (l : Fin c) (r : Fin n)
    (hr : r.val = s.val * b + t.val) :
    shapeCast ⟨2, ![n, c]⟩ x h (ix2 r l) = x (ix3 s t l) :=
  shapeCast_apply x h _ _ (by
    rw [Shape.rowMajor_val_three, Shape.rowMajor_val_two]
    show (s.val * b + t.val) * c + l.val = r.val * c + l.val
    rw [hr])

/-- `[n, c]` with `n = a·b` recast as `[a, b, c]`, read at `(s, t, l)`: the matrix at `(r, l)` with `r = s·b + t`. -/
theorem shapeCast_nc_abc_apply {a b c n : ℕ} (x : (⟨2, ![n, c]⟩ : Shape).Idx → α)
    (h : (⟨2, ![n, c]⟩ : Shape).ShapeCasts ⟨3, ![a, b, c]⟩) (s : Fin a) (t : Fin b) (l : Fin c) (r : Fin n)
    (hr : r.val = s.val * b + t.val) :
    shapeCast ⟨3, ![a, b, c]⟩ x h (ix3 s t l) = x (ix2 r l) :=
  shapeCast_apply x h _ _ (by
    rw [Shape.rowMajor_val_three, Shape.rowMajor_val_two]
    show r.val * c + l.val = (s.val * b + t.val) * c + l.val
    rw [hr])

end Cert.LibRowsFlatten
-- ==== Proof.LoraArray.lean ====
/-
  From the blocks to the whole result.

  The grid has 16 × 2 points; point (i, j) reads rows [1024·i, 1024·i + 1024) of the input matrix, rows
  [1024·j, 1024·j + 1024) of the weights and of the up-projection, the whole down-projection, and writes block (i, j)
  of the [16384, 2048] output. Each written block is that block of ONE matrix — the layer's output for the whole
  input matrix — because an output entry reads only its own input row and its own weight rows; the 32 blocks tile the
  output, so the region leaves that matrix. Before the region the batch [4, 4096, 2048] is read as the matrix of its
  rows, after it the output matrix is read back as a batch: row s·4096 + t of the matrix is row (s, t) of the batch,
  so the program's result is the layer's output for the batch.
-/
import proofs.«102331_j15015205667343_1_alg».proof.Proof.Gen.KernelIdeal.Frame
import proofs.«102331_j15015205667343_1_alg».proof.Proof.LoraBlock
import proofs.«102331_j15015205667343_1_alg».proof.Proof.LibRowsFlatten
import Idealize.ShloMosaic.Lib.Pipeline.Value
import Idealize.ShloMosaic.Lib.StableHlo.Run

noncomputable section

open scoped BigOperators

namespace Cert.KernelIdeal.LoraArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.LoraBlock (scale)

variable (m : (ℓ : Loc nD τ sig) → Buf (Elt Ideal) ℓ) (ρ : Dev nD → PrngReg)

theorem zeros : (![0, 0] : Fin 2 → Nat) = fun _ => 0 := funext fun a => by fin_cases a <;> rfl

/-! ## The matrix the region leaves -/

/-- The layer's output for the whole input matrix and the whole parameters, as the region finds them. -/
def outRows (c : Dev nD) : S16384x2048.Idx → EReal :=
  Cert.LibLoraLayer.rows scale (V m c main_v0) (V m c main_arg1) (V m c main_arg2) (V m c main_arg3)

/-- The printed index maps over the 32 points: the input block moves with the output block's row index, the
    weight and up-projection blocks with its column index, the down-projection stays. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = 0
    ∧ win0_3.index t (0 : Fin 2) = win0_4.index t (1 : Fin 2) ∧ win0_3.index t (1 : Fin 2) = 0 :=
  (by decide +kernel : ∀ t : Fin grid0.N, _)

/-- Every block of the output is some point's. -/
theorem idx_onto : ∀ (q0 : Fin 16) (q1 : Fin 2), ∃ t : Fin cfg0.N, win0_4.index t = ![q0.val, q1.val] :=
  (by decide +kernel : ∀ (q0 : Fin 16) (q1 : Fin 2), ∃ t : Fin grid0.N, win0_4.index t = ![q0.val, q1.val])

/-- What point `t` writes back is block `t` of `outRows`. -/
theorem flushed_eq (c : Dev nD) (t : Fin cfg0.N) :
    (dats m 0 c).flushed 4 t = ((cfg0.win 4).blk t).view.read (Elt Ideal) (outRows m c) := by
  show (cfg0.win 4).cut (grid0.coords t) ((dats m 0 c).after 4 t) = _
  rw [after0_4]
  unfold out0_4
  rw [View.canon_unit_zero zeros]
  simp only [View.ld_unit_zero (S := S1024x2048) zeros, View.ld_unit_zero (S := S64x2048) zeros,
    View.ld_unit_zero (S := S1024x64) zeros]
  rw [Cert.KernelIdeal.LoraBlock.pay_eq]
  obtain ⟨e00, e01, e10, e11, e20, e21, e30, e31⟩ := idx_facts t
  funext j
  show Cert.LibLoraLayer.rowEntry scale (iblk m c 0 t) (iblk m c 1 t) (iblk m c 2 t) (iblk m c 3 t) (j 0) (j 1)
    = Cert.LibLoraLayer.rowEntry scale (V m c main_v0) (V m c main_arg1) (V m c main_arg2) (V m c main_arg3)
        ((((cfg0.win 4).blk t).view.emb j) 0) ((((cfg0.win 4).blk t).view.emb j) 1)
  refine Cert.LibLoraLayer.rowEntry_congr scale _ _ _ _ _ _ _ _ _ _ _ _ ?_ ?_ ?_ ?_
  · intro d
    show V m c main_v0 (((cfg0.win 0).blk t).view.emb (ix2 (j 0) d)) = V m c main_v0 (ix2 ((((cfg0.win 4).blk t).view.emb j) 0) d)
    refine congrArg (V m c main_v0) (funext fun a => Fin.ext ?_)
    match a with
    | ⟨0, _⟩ => show win0_0.index t (0 : Fin 2) * 1024 + 1 * (j 0).val = win0_4.index t (0 : Fin 2) * 1024 + 1 * (j 0).val; rw [e00]
    | ⟨1, _⟩ => show win0_0.index t (1 : Fin 2) * 2048 + 1 * d.val = d.val; rw [e01]; omega
  · intro d
    show V m c main_arg1 (((cfg0.win 1).blk t).view.emb (ix2 (j 1) d)) = V m c main_arg1 (ix2 ((((cfg0.win 4).blk t).view.emb j) 1) d)
    refine congrArg (V m c main_arg1) (funext fun a => Fin.ext ?_)
    match a with
    | ⟨0, _⟩ => show win0_1.index t (0 : Fin 2) * 1024 + 1 * (j 1).val = win0_4.index t (1 : Fin 2) * 1024 + 1 * (j 1).val; rw [e10]
    | ⟨1, _⟩ => show win0_1.index t (1 : Fin 2) * 2048 + 1 * d.val = d.val; rw [e11]; omega
  · intro r d
    show V m c main_arg2 (((cfg0.win 2).blk t).view.emb (ix2 r d)) = V m c main_arg2 (ix2 r d)
    refine congrArg (V m c main_arg2) (funext fun a => Fin.ext ?_)
    match a with
    | ⟨0, _⟩ => show win0_2.index t (0 : Fin 2) * 64 + 1 * r.val = r.val; rw [e20]; omega
    | ⟨1, _⟩ => show win0_2.index t (1 : Fin 2) * 2048 + 1 * d.val = d.val; rw [e21]; omega
  · intro r
    show V m c main_arg3 (((cfg0.win 3).blk t).view.emb (ix2 (j 1) r)) = V m c main_arg3 (ix2 ((((cfg0.win 4).blk t).view.emb j) 1) r)
    refine congrArg (V m c main_arg3) (funext fun a => Fin.ext ?_)
    match a with
    | ⟨0, _⟩ => show win0_3.index t (0 : Fin 2) * 1024 + 1 * (j 1).val = win0_4.index t (1 : Fin 2) * 1024 + 1 * (j 1).val; rw [e30]
    | ⟨1, _⟩ => show win0_3.index t (1 : Fin 2) * 64 + 1 * r.val = r.val; rw [e31]; omega

/-- An index of the output matrix is in point `t`'s block iff each coordinate is in the block's range. -/
theorem mem_blk (t : Fin cfg0.N) (i : S16384x2048.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v1).slice (win0_4.rect t)).set ↔ _
  rw [View.set_slice_whole, Rect.mem_set_unit]
  exact Iff.rfl

/-- The 32 blocks cover the output matrix: entry (r, o) lies in the block of point (r / 1024, o / 1024). -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- The region leaves the layer's output matrix. -/
theorem final_rows (c : Dev nD) : (dats m 0 c).arrAt 4 cfg0.N = outRows m c :=
  (dats m 0 c).arrAt_eq_of_cover 4 (outRows m c) (fun t _ => flushed_eq m c t) cover

/-! ## The reshapes around the region -/

/-- The region's input matrix is the batch read as the matrix of its rows. -/
theorem V_rows (c : Dev nD) : (V m c main_v0 : S16384x2048.Idx → EReal)
    = shapeCast S16384x2048 (m ((c : Thread nD τ).loc main_arg0)) shapeCasts_S4x4096x2048_S16384x2048 := by
  show StableHlo.after hostOps0 (fun b => m (c, b)) (Proc.devRef .tc main_v0) = _
  after_results
  rfl

/-- The program's result buffer after the line that follows the region: the region's output matrix read back as a batch. -/
theorem tail_eq (c : Dev nD) :
    Pipeline.afterTail₀ cfgs (dats m) 0 (V0 m) [hostOps1] c main_v2
      = shapeCast S4x4096x2048 (outRows m c) shapeCasts_S16384x2048_S4x4096x2048 := by
  unfold Pipeline.afterTail₀
  show StableHlo.after hostOps1 _ (Proc.devRef .tc main_v2) = _
  after_results
  exact congrArg (fun x : S16384x2048.Idx → EReal => shapeCast S4x4096x2048 x shapeCasts_S16384x2048_S4x4096x2048)
    ((Pipeline.withArrays_arr spec0 launch0.win.arr_inj c _ _ 4).trans (final_rows m c))

/-! ## The result, entry by entry -/

/-- The layer's output for the batch and the parameters the program was launched with. -/
def result (c : Dev nD) : S4x4096x2048.Idx → EReal :=
  Cert.LibLoraLayer.batch scale (m ((c : Thread nD τ).loc main_arg0)) (m ((c : Thread nD τ).loc main_arg1))
    (m ((c : Thread nD τ).loc main_arg2)) (m ((c : Thread nD τ).loc main_arg3))

/-- The output matrix read back as a batch is the layer's output for the batch: entry (s, t, o) is the matrix's
    entry (s·4096 + t, o), whose input row is the batch's row (s, t). -/
theorem result_eq (c : Dev nD) :
    shapeCast S4x4096x2048 (outRows m c) shapeCasts_S16384x2048_S4x4096x2048 = result m c := by
  funext i
  obtain ⟨s, t, o, rfl⟩ : ∃ (s : Fin 4) (t : Fin 4096) (o : Fin 2048), i = ix3 s t o := ⟨i 0, i 1, i 2, eq_ix3 i⟩
  have hr : s.val * 4096 + t.val < 16384 := by have := s.isLt; have := t.isLt; omega
  refine (Cert.LibRowsFlatten.shapeCast_nc_abc_apply (outRows m c) shapeCasts_S16384x2048_S4x4096x2048 s t o
    ⟨s.val * 4096 + t.val, hr⟩ rfl).trans ?_
  unfold outRows result
  rw [Cert.LibLoraLayer.rows_apply, Cert.LibLoraLayer.batch_apply, V_rows, V_main_arg1, V_main_arg2, V_main_arg3]
  exact Cert.LibLoraLayer.rowEntry_eq_batchEntry scale _ _ _ _ _ _ s t o (fun d =>
    Cert.LibRowsFlatten.shapeCast_abc_nc_apply _ shapeCasts_S4x4096x2048_S16384x2048 s t d ⟨s.val * 4096 + t.val, hr⟩ rfl)

/-! ## The run, read -/

/-- Every weakly fair execution of the program ends with its result buffer at the layer's output for the batch it was
    launched with, and its arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.LoraArray

end
-- ==== Proof.LoraReference.lean ====
/-
  The reference, entry by entry.

  The reference contracts the batch's last axis against the weight rows (`base`), against the down-projection's rows
  and then that against the up-projection's rows (`lora`), and returns `base + 2 · lora`. Read at entry (s, t, o),
  each contraction is a plain sum over its one contracted coordinate, the left operand at row (s, t) and the right
  at the row the output's last coordinate names; the spread constant is the float 2.0 at every entry. That is the
  layer's output for the batch, term for term.
-/
import proofs.«102331_j15015205667343_1_alg».proof.Proof.Gen.ReferenceIdeal.Read
import proofs.«102331_j15015205667343_1_alg».proof.Proof.LibLoraLayer

noncomputable section

open scoped BigOperators

namespace Cert.ReferenceIdeal.LoraRef

open Cert.ReferenceIdeal Cert.ReferenceIdeal.Read Idealize.ShloMosaic Idealize.ShloMosaic.ValueIdx

/-- The base product reads the batch's row (s, t) -/
theorem base_l (s : Fin 4) (t : Fin 4096) (o : Fin 2048) (k : Fin 2048) : lidx_main_v0 (ix3 s t o) k = ix3 s t k :=
  funext fun a => Fin.ext (by match a with | ⟨0, _⟩ => rfl | ⟨1, _⟩ => rfl | ⟨2, _⟩ => rfl)
/-- against the weights' row `o`. -/
theorem base_r (s : Fin 4) (t : Fin 4096) (o : Fin 2048) (k : Fin 2048) : ridx_main_v0 (ix3 s t o) k = ix2 o k :=
  funext fun a => Fin.ext (by match a with | ⟨0, _⟩ => rfl | ⟨1, _⟩ => rfl)
/-- The down-projection reads the batch's row (s, t) -/
theorem down_l (s : Fin 4) (t : Fin 4096) (r : Fin 64) (k : Fin 2048) : lidx_main_v1 (ix3 s t r) k = ix3 s t k :=
  funext fun a => Fin.ext (by match a with | ⟨0, _⟩ => rfl | ⟨1, _⟩ => rfl | ⟨2, _⟩ => rfl)
/-- against the down-projection's row `r`. -/
theorem down_r (s : Fin 4) (t : Fin 4096) (r : Fin 64) (k : Fin 2048) : ridx_main_v1 (ix3 s t r) k = ix2 r k :=
  funext fun a => Fin.ext (by match a with | ⟨0, _⟩ => rfl | ⟨1, _⟩ => rfl)
/-- The up-projection reads the projected row (s, t) -/
theorem up_l (s : Fin 4) (t : Fin 4096) (o : Fin 2048) (k : Fin 64) : lidx_main_v2 (ix3 s t o) k = ix3 s t k :=
  funext fun a => Fin.ext (by match a with | ⟨0, _⟩ => rfl | ⟨1, _⟩ => rfl | ⟨2, _⟩ => rfl)
/-- against the up-projection's row `o`. -/
theorem up_r (s : Fin 4) (t : Fin 4096) (o : Fin 2048) (k : Fin 64) : ridx_main_v2 (ix3 s t o) k = ix2 o k :=
  funext fun a => Fin.ext (by match a with | ⟨0, _⟩ => rfl | ⟨1, _⟩ => rfl)

/-- The reference's result is the layer's output for the batch, with the scale the float 2.0. -/
theorem result_eq (x0 : S4x4096x2048.Idx → EReal) (x1 : S2048x2048.Idx → EReal) (x2 : S64x2048.Idx → EReal)
    (x3 : S2048x64.Idx → EReal) :
    val_main_v5 (F := Ideal) x0 x1 x2 x3 = Cert.LibLoraLayer.batch (Ideal.ofBits .f32 0x40000000#32) x0 x1 x2 x3 := by
  funext i
  obtain ⟨s, t, o, rfl⟩ : ∃ (s : Fin 4) (t : Fin 4096) (o : Fin 2048), i = ix3 s t o := ⟨i 0, i 1, i 2, eq_ix3 i⟩
  rw [val_main_v5_apply, val_main_v0_apply, val_main_v4_apply, val_main_v3_apply, val_main_cst_apply, val_main_v2_apply,
    Cert.LibLoraLayer.batch_apply]
  unfold Cert.LibLoraLayer.batchEntry
  simp only [base_l, base_r, up_l, up_r, val_main_v1_apply, down_l, down_r]
  rfl

end Cert.ReferenceIdeal.LoraRef

end
-- ==== Proof.lean ====
/-
  A linear layer with a low-rank correction, computed two ways, is one function on the extended reals.

  For a batch `x` of shape [4, 4096, 2048], weights `W` [2048, 2048] stored one row per output feature, a
  down-projection `A` [64, 2048] and an up-projection `B` [2048, 64], both programs return

      out[s,t,o] = ∑ d, x[s,t,d] · W[o,d]  +  2 · ∑ r, (∑ d, x[s,t,d] · A[r,d]) · B[o,r].

  The kernel reads the batch as the matrix of its 16384 rows, computes the output matrix in 16 × 2 blocks of
  1024 × 1024 entries — each block from 1024 input rows, 1024 weight rows, the whole down-projection and 1024
  up-projection rows, by three matrix products started from zero — and reads the output matrix back as a batch. The
  reference contracts the batch's last axis directly. On the extended reals a change of float format is the identity
  and a matrix product is the plain sum over its contracted coordinate, so the two agree entry by entry: both keep
  the same grouping (project down, then up), the same order of the two factors and of the two summands, and the same
  scale 2.0, so no law that would need finite entries is used. The idealization rewrote no operation, so the
  kernel's idealized text is its own text read on the extended reals. The three programs' runs terminate without a
  fault and leave their arguments unchanged: the kernel's two by the generated frame modules, the reference's by its
  generated run.
-/
import proofs.«102331_j15015205667343_1_alg».proof.Defs
import proofs.«102331_j15015205667343_1_alg».proof.Proof.Gen.Kernel
import proofs.«102331_j15015205667343_1_alg».proof.Proof.Gen.Kernel.Skeleton
import proofs.«102331_j15015205667343_1_alg».proof.Proof.Gen.Kernel.Launch
import proofs.«102331_j15015205667343_1_alg».proof.Proof.Gen.Kernel.Points
import proofs.«102331_j15015205667343_1_alg».proof.Proof.Gen.Kernel.Frame
import proofs.«102331_j15015205667343_1_alg».proof.Proof.Gen.KernelIdeal
import proofs.«102331_j15015205667343_1_alg».proof.Proof.Gen.KernelIdeal.Skeleton
import proofs.«102331_j15015205667343_1_alg».proof.Proof.Gen.KernelIdeal.Launch
import proofs.«102331_j15015205667343_1_alg».proof.Proof.Gen.KernelIdeal.Points
import proofs.«102331_j15015205667343_1_alg».proof.Proof.Gen.KernelIdeal.Frame
import proofs.«102331_j15015205667343_1_alg».proof.Proof.Gen.ReferenceIdeal
import proofs.«102331_j15015205667343_1_alg».proof.Proof.Gen.Pre_finite_inputs
import proofs.«102331_j15015205667343_1_alg».proof.Proof.Gen.ReferenceIdeal.Run
import proofs.«102331_j15015205667343_1_alg».proof.Proof.Gen.ReferenceIdeal.Read
import proofs.«102331_j15015205667343_1_alg».proof.Proof.LoraArray
import proofs.«102331_j15015205667343_1_alg».proof.Proof.LoraReference
import Idealize.ShloMosaic.Adequacy
import Idealize.ShloMosaic.Init

noncomputable section

namespace Cert.Proof

open Idealize.ShloMosaic Idealize.ShloMosaic.TcCoe Idealize.SL.Sem

/-- The kernel as printed runs to the end and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- Both programs end with the layer's output for the batch and parameters they were launched with; launched with the
    same arguments, they end with the same result. -/
theorem algebraic : Cert.algebraic_KernelIdeal_ReferenceIdeal := by
  intro m ρ m' ρ' _ hagree
  refine ⟨fun c => Cert.KernelIdeal.LoraArray.result m c, Cert.KernelIdeal.LoraArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.LoraRef.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
